-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S11008x32 : Shape := ⟨2, ![11008, 32]⟩
abbrev S4096x86 : Shape := ⟨2, ![4096, 86]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096x86 : S_.BroadcastsInDim S4096x86 (![] : Fin 0 → Fin S4096x86.rank)
  reducesTo_S4096x86_S_d0_1 : S4096x86.ReducesTo [0, 1] S_

variable [Facts]

def fn_part1 {F : FTy → Type} [FloatOps F] (main_arg7 : FVec F S11008x32 .f32) (main_arg8 : FVec F S4096x86 .f32) (main_arg9 : FVec F S4096x86 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S11008x32 .f32 := Host.absf main_arg7
  let main_cst_6 : FVec F S_ .f32 := constant S_ .f32 0x7F800000#32
  let main_v20 : FVec F S11008x32 .f32 := broadcastInDim S11008x32 ![] bcast_S_S11008x32 main_cst_6
  let main_v21 : IVec S11008x32 1 := cmpf .olt main_v19 main_v20
  let main_c_7 : IVec S_ 1 := constantI S_ 1 1#1
  let main_v22 : IVec S_ 1 := (fun x v => Host.reduce IntOp.andi x v reducesTo_S11008x32_S_d0_1 h_S_) main_v21 main_c_7
  let main_v23 : IVec S_ 1 := andi main_v18 main_v22
  let main_v24 : FVec F S4096x86 .f32 := Host.absf main_arg8
  let main_cst_8 : FVec F S_ .f32 := constant S_ .f32 0x7F800000#32
  let main_v25 : FVec F S4096x86 .f32 := broadcastInDim S4096x86 ![] bcast_S_S4096x86 main_cst_8
  let main_v26 : IVec S4096x86 1 := cmpf .olt main_v24 main_v25
  let main_c_9 : IVec S_ 1 := constantI S_ 1 1#1
  let main_v27 : IVec S_ 1 := (fun x v => Host.reduce IntOp.andi x v reducesTo_S4096x86_S_d0_1 h_S_) main_v26 main_c_9
  let main_v28 : IVec S_ 1 := andi main_v23 main_v27
  let main_v29 : FVec F S4096x86 .f32 := Host.absf main_arg9
  let main_cst_10 : FVec F S_ .f32 := constant S_ .f32 0x7F800000#32
  let main_v30 : FVec F S4096x86 .f32 := broadcastInDim S4096x86 ![] bcast_S_S4096x86 main_cst_10
  let main_v31 : IVec S4096x86 1 := cmpf .olt main_v29 main_v30
  let main_c_11 : IVec S_ 1 := constantI S_ 1 1#1
  let main_v32 : IVec S_ 1 := (fun x v => Host.reduce IntOp.andi x v reducesTo_S4096x86_S_d0_1 h_S_) main_v31 main_c_11
  let main_v33 : IVec S_ 1 := andi main_v28 main_v32
  main_v33

def fn {F : FTy → Type} [FloatOps F] (main_arg0 : FVec F S4x2048x4096 .f32) (main_arg1 : IVec S11008x4096 32) (main_arg2 : IVec S11008x4096 32) (main_arg3 : IVec S4096x11008 32) (main_arg4 : FVec F S11008x32 .f32) (main_arg5 : FVec F S11008x32 .f32) (main_arg6 : FVec F S11008x32 .f32) (main_arg7 : FVec F S11008x32 .f32) (main_arg8 : FVec F S4096x86 .f32) (main_arg9 : FVec F S4096x86 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg4
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg5
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008x32 .f32 := Host.absf main_arg6
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg7 main_arg8 main_arg9 main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S11008x32 : Shape := ⟨2, ![11008, 32]⟩
abbrev S4096x86 : Shape := ⟨2, ![4096, 86]⟩
abbrev S8192x4096 : Shape := ⟨2, ![8192, 4096]⟩
abbrev S8192x11008 : Shape := ⟨2, ![8192, 11008]⟩
abbrev S1024x4096 : Shape := ⟨2, ![1024, 4096]⟩
abbrev S128x4096 : Shape := ⟨2, ![128, 4096]⟩
abbrev S128x32 : Shape := ⟨2, ![128, 32]⟩
abbrev S1024x128 : Shape := ⟨2, ![1024, 128]⟩
abbrev S128x32x128 : Shape := ⟨3, ![128, 32, 128]⟩
abbrev S128x32x1 : Shape := ⟨3, ![128, 32, 1]⟩
abbrev S256x11008 : Shape := ⟨2, ![256, 11008]⟩
abbrev S128x11008 : Shape := ⟨2, ![128, 11008]⟩
abbrev S128x86 : Shape := ⟨2, ![128, 86]⟩
abbrev S256x128 : Shape := ⟨2, ![256, 128]⟩
abbrev S128x86x128 : Shape := ⟨3, ![128, 86, 128]⟩
abbrev S128x86x1 : Shape := ⟨3, ![128, 86, 1]⟩

abbrev nBuf : Space → Nat
  | .hbm => 15
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008x32, .f32⟩
  | .hbm, ⟨5, _⟩ => ⟨S11008x32, .f32⟩
  | .hbm, ⟨6, _⟩ => ⟨S11008x32, .f32⟩
  | .hbm, ⟨7, _⟩ => ⟨S11008x32, .f32⟩
  | .hbm, ⟨8, _⟩ => ⟨S4096x86, .f32⟩
  | .hbm, ⟨9, _⟩ => ⟨S4096x86, .f32⟩
  | .hbm, ⟨10, _⟩ => ⟨S8192x4096, .f32⟩
  | .hbm, ⟨11, _⟩ => ⟨S8192x4096, .bf16⟩
  | .hbm, ⟨12, _⟩ => ⟨S8192x11008, .bf16⟩
  | .hbm, ⟨13, _⟩ => ⟨S8192x4096, .f32⟩
  | .hbm, ⟨14, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .i32⟩
  | .local _ .vmem, ⟨3, _⟩ => ⟨S128x4096, .i32⟩
  | .local _ .vmem, ⟨4, _⟩ => ⟨S128x32, .f32⟩
  | .local _ .vmem, ⟨5, _⟩ => ⟨S128x32, .f32⟩
  | .local _ .vmem, ⟨6, _⟩ => ⟨S128x32, .f32⟩
  | .local _ .vmem, ⟨7, _⟩ => ⟨S128x32, .f32⟩
  | .local _ .vmem, ⟨8, _⟩ => ⟨S128x4096, .i32⟩
  | .local _ .vmem, ⟨9, _⟩ => ⟨S128x4096, .i32⟩
  | .local _ .vmem, ⟨10, _⟩ => ⟨S128x32, .f32⟩
  | .local _ .vmem, ⟨11, _⟩ => ⟨S128x32, .f32⟩
  | .local _ .vmem, ⟨12, _⟩ => ⟨S128x32, .f32⟩
  | .local _ .vmem, ⟨13, _⟩ => ⟨S128x32, .f32⟩
  | .local _ .vmem, ⟨14, _⟩ => ⟨S1024x128, .bf16⟩
  | .local _ .vmem, ⟨15, _⟩ => ⟨S1024x128, .bf16⟩
  | .local _ .vmem, ⟨16, _⟩ => ⟨S256x11008, .bf16⟩
  | .local _ .vmem, ⟨17, _⟩ => ⟨S256x11008, .bf16⟩
  | .local _ .vmem, ⟨18, _⟩ => ⟨S128x11008, .i32⟩
  | .local _ .vmem, ⟨19, _⟩ => ⟨S128x11008, .i32⟩
  | .local _ .vmem, ⟨20, _⟩ => ⟨S128x86, .f32⟩
  | .local _ .vmem, ⟨21, _⟩ => ⟨S128x86, .f32⟩
  | .local _ .vmem, ⟨22, _⟩ => ⟨S128x86, .f32⟩
  | .local _ .vmem, ⟨23, _⟩ => ⟨S128x86, .f32⟩
  | .local _ .vmem, ⟨24, _⟩ => ⟨S256x128, .f32⟩
  | .local _ .vmem, ⟨25, _⟩ => ⟨S256x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![86, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x11008 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x86 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x86 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x4096_S8192x4096 : S4x2048x4096.ShapeCasts S8192x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x4096_S128x4096_0_0 : ∀ a, (![0, 0] : Fin 2 → Nat) a + S128x4096.size a ≤ S128x4096.size a
  h_S128x4096 : 0 < S128x4096.numel
  inb_S128x32_S128x32_0_0 : ∀ a, (![0, 0] : Fin 2 → Nat) a + S128x32.size a ≤ S128x32.size a
  h_S128x32 : 0 < S128x32.numel
  shapeCasts_S128x4096_S128x32x128 : S128x4096.ShapeCasts S128x32x128
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S128x11008_S128x11008_0_0 : ∀ a, (![0, 0] : Fin 2 → Nat) a + S128x11008.size a ≤ S128x11008.size a
  h_S128x11008 : 0 < S128x11008.numel
  inb_S128x86_S128x86_0_0 : ∀ a, (![0, 0] : Fin 2 → Nat) a + S128x86.size a ≤ S128x86.size a
  h_S128x86 : 0 < S128x86.numel
  shapeCasts_S128x11008_S128x86x128 : S128x11008.ShapeCasts S128x86x128
  shapeCasts_S128x86_S128x86x1 : S128x86.ShapeCasts S128x86x1
  broadcasts_S128x86x1_S128x86x128 : S128x86x1.Broadcasts S128x86x128
  shapeCasts_S128x86x128_S128x11008 : S128x86x128.ShapeCasts S128x11008
  inb_S256x128_S256x128_0_0 : ∀ a, (![0, 0] : Fin 2 → Nat) a + S256x128.size a ≤ S256x128.size a
  h_S256x128 : 0 < S256x128.numel
  shapeCasts_S8192x4096_S4x2048x4096 : S8192x4096.ShapeCasts S4x2048x4096
  dot_S1024x4096_S128x4096_S1024x128_1_1_0_0_n_n_wf : DotDims.WF S1024x4096 S128x4096 S1024x128 [1] [1] [0] [0] [] []
  dot_S256x11008_S128x11008_S256x128_1_1_0_0_n_n_wf : DotDims.WF S256x11008 S128x11008 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .i32 = 32 ∨ (Rect.block (s := S11008x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S11008x32.size a
  hwx0_3 : ∀ i : grid0.Coords, EltTy.bits .f32 = 32 ∨ (Rect.block (s := S11008x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S11008x4096.size a
  hwx0_4 : ∀ i : grid0.Coords, EltTy.bits .i32 = 32 ∨ (Rect.block (s := S11008x4096) S128x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S11008x32.size a
  hwx0_5 : ∀ i : grid0.Coords, EltTy.bits .f32 = 32 ∨ (Rect.block (s := S11008x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S11008x32.size a
  hwx0_6 : ∀ i : grid0.Coords, EltTy.bits .f32 = 32 ∨ (Rect.block (s := S11008x32) S128x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x11008.size a
  hwx0_7 : ∀ i : grid0.Coords, EltTy.bits .bf16 = 32 ∨ (Rect.block (s := S8192x11008) S1024x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x11008.size a ≤ S8192x11008.size a
  hwx1_0 : ∀ i : grid1.Coords, EltTy.bits .bf16 = 32 ∨ (Rect.block (s := S8192x11008) S256x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x11008.size a ≤ S4096x11008.size a
  hwx1_1 : ∀ i : grid1.Coords, EltTy.bits .i32 = 32 ∨ (Rect.block (s := S4096x11008) S128x11008.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x86.size a ≤ S4096x86.size a
  hwx1_2 : ∀ i : grid1.Coords, EltTy.bits .f32 = 32 ∨ (Rect.block (s := S4096x86) S128x86.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x86.size a ≤ S4096x86.size a
  hwx1_3 : ∀ i : grid1.Coords, EltTy.bits .f32 = 32 ∨ (Rect.block (s := S4096x86) S128x86.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S8192x4096.size a
  hwx1_4 : ∀ i : grid1.Coords, EltTy.bits .f32 = 32 ∨ (Rect.block (s := S8192x4096) S256x128.size (cc1_transform_4 i) (hinb1_4 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf
def dot_S256x11008_S128x11008_S256x128_1_1_0_0_n_n : DotDims S256x11008 S128x11008 S256x128 where
  lhsContracting := [1]
  rhsContracting := [1]
  lhsNonContracting := [0]
  rhsNonContracting := [0]
  lhsBatch := []
  rhsBatch := []
  wf := dot_S256x11008_S128x11008_S256x128_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2) S256x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x86.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x86.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S11008x32 : Shape := ⟨2, ![11008, 32]⟩
abbrev S4096x86 : Shape := ⟨2, ![4096, 86]⟩
abbrev S11008x32x128 : Shape := ⟨3, ![11008, 32, 128]⟩
abbrev S11008x32x1 : Shape := ⟨3, ![11008, 32, 1]⟩
abbrev S4096x86x128 : Shape := ⟨3, ![4096, 86, 128]⟩
abbrev S4096x86x1 : Shape := ⟨3, ![4096, 86, 1]⟩
abbrev S4x2048x11008 : Shape := ⟨3, ![4, 2048, 11008]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008x32, .f32⟩
  | .hbm, ⟨5, _⟩ => ⟨S11008x32, .f32⟩
  | .hbm, ⟨6, _⟩ => ⟨S11008x32, .f32⟩
  | .hbm, ⟨7, _⟩ => ⟨S11008x32, .f32⟩
  | .hbm, ⟨8, _⟩ => ⟨S4096x86, .f32⟩
  | .hbm, ⟨9, _⟩ => ⟨S4096x86, .f32⟩
  | .hbm, ⟨10, _⟩ => ⟨S11008x32x128, .i32⟩
  | .hbm, ⟨11, _⟩ => ⟨S11008x32x128, .f32⟩
  | .hbm, ⟨12, _⟩ => ⟨S11008x32x1, .f32⟩
  | .hbm, ⟨13, _⟩ => ⟨S11008x32x128, .f32⟩
  | .hbm, ⟨14, _⟩ => ⟨S11008x32x128, .f32⟩
  | .hbm, ⟨15, _⟩ => ⟨S11008x32x1, .f32⟩
  | .hbm, ⟨16, _⟩ => ⟨S11008x32x128, .f32⟩
  | .hbm, ⟨17, _⟩ => ⟨S11008x32x128, .f32⟩
  | .hbm, ⟨18, _⟩ => ⟨S11008x4096, .f32⟩
  | .hbm, ⟨19, _⟩ => ⟨S11008x32x128, .i32⟩
  | .hbm, ⟨20, _⟩ => ⟨S11008x32x128, .f32⟩
  | .hbm, ⟨21, _⟩ => ⟨S11008x32x1, .f32⟩
  | .hbm, ⟨22, _⟩ => ⟨S11008x32x128, .f32⟩
  | .hbm, ⟨23, _⟩ => ⟨S11008x32x128, .f32⟩
  | .hbm, ⟨24, _⟩ => ⟨S11008x32x1, .f32⟩
  | .hbm, ⟨25, _⟩ => ⟨S11008x32x128, .f32⟩
  | .hbm, ⟨26, _⟩ => ⟨S11008x32x128, .f32⟩
  | .hbm, ⟨27, _⟩ => ⟨S11008x4096, .f32⟩
  | .hbm, ⟨28, _⟩ => ⟨S4096x86x128, .i32⟩
  | .hbm, ⟨29, _⟩ => ⟨S4096x86x128, .f32⟩
  | .hbm, ⟨30, _⟩ => ⟨S4096x86x1, .f32⟩
  | .hbm, ⟨31, _⟩ => ⟨S4096x86x128, .f32⟩
  | .hbm, ⟨32, _⟩ => ⟨S4096x86x128, .f32⟩
  | .hbm, ⟨33, _⟩ => ⟨S4096x86x1, .f32⟩
  | .hbm, ⟨34, _⟩ => ⟨S4096x86x128, .f32⟩
  | .hbm, ⟨35, _⟩ => ⟨S4096x86x128, .f32⟩
  | .hbm, ⟨36, _⟩ => ⟨S4096x11008, .f32⟩
  | .hbm, ⟨37, _⟩ => ⟨S4x2048x11008, .f32⟩
  | .hbm, ⟨38, _⟩ => ⟨S4x2048x11008, .f32⟩
  | .hbm, ⟨39, _⟩ => ⟨S4x2048x11008, .f32⟩
  | .hbm, ⟨40, _⟩ => ⟨S4x2048x11008, .f32⟩
  | .hbm, ⟨41, _⟩ => ⟨S_, .f32⟩
  | .hbm, ⟨42, _⟩ => ⟨S4x2048x11008, .f32⟩
  | .hbm, ⟨43, _⟩ => ⟨S4x2048x11008, .f32⟩
  | .hbm, ⟨44, _⟩ => ⟨S_, .f32⟩
  | .hbm, ⟨45, _⟩ => ⟨S4x2048x11008, .f32⟩
  | .hbm, ⟨46, _⟩ => ⟨S4x2048x11008, .f32⟩
  | .hbm, ⟨47, _⟩ => ⟨S4x2048x11008, .f32⟩
  | .hbm, ⟨48, _⟩ => ⟨S4x2048x11008, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  shapeCasts_S4096x11008_S4096x86x128 : S4096x11008.ShapeCasts S4096x86x128
  bcast_S4096x86_S4096x86x1_0_1 : S4096x86.BroadcastsInDim S4096x86x1 (![0, 1] : Fin 2 → Fin S4096x86x1.rank)
  bcast_S4096x86x1_S4096x86x128_0_1_2 : S4096x86x1.BroadcastsInDim S4096x86x128 (![0, 1, 2] : Fin 3 → Fin S4096x86x128.rank)
  shapeCasts_S4096x86x128_S4096x11008 : S4096x86x128.ShapeCasts S4096x11008
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Spec.lean ====
/-
  The function both programs compute, over the extended reals.

  A quantized weight matrix stores one integer code per entry and one scale `s` and one zero point `z` per
  group of 128 consecutive entries of a row; the weight is `(q − z) · s`, the code read as the integer it is.
  For one row `x` of the activations (4096 numbers) the layer is

      g_i = ∑_k x_k · Wgate_{i,k}        u_i = ∑_k x_k · Wup_{i,k}          (i < 11008)
      h_i = (g_i · σ(g_i)) · u_i         σ(t) = 1 / (1 + e^{-t})
      y_j = ∑_i h_i · Wdown_{j,i}                                          (j < 4096)

  and the result array holds `y` of row `(b, t)` of the activations at `(b, t, ·)`.  Nothing here depends on
  how a program tiles the rows or the columns: each sum is over the whole contracted axis, in its index order.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The activations `[4, 2048, 4096]`. -/
abbrev SX : Shape := ⟨3, ![4, 2048, 4096]⟩
/-- The gate and up codes `[11008, 4096]`, and their per-group scales and zero points `[11008, 32]`. -/
abbrev SQ : Shape := ⟨2, ![11008, 4096]⟩
abbrev SG : Shape := ⟨2, ![11008, 32]⟩
/-- The down codes `[4096, 11008]`, and their per-group scales and zero points `[4096, 86]`. -/
abbrev SQd : Shape := ⟨2, ![4096, 11008]⟩
abbrev SGd : Shape := ⟨2, ![4096, 86]⟩

/-- One dequantized weight: `(q − z) · s`, the stored code read as a signed integer, exactly. -/
def deq (q : BitVec 32) (z s : EReal) : EReal := (((q.toInt : ℝ) : EReal) - z) * s

theorem grp32 (k : Fin 4096) : k.val / 128 < 32 := by have := k.isLt; omega
theorem grp86 (k : Fin 11008) : k.val / 128 < 86 := by have := k.isLt; omega

/-- Entry `(i, k)` of a gate or up weight: column `k` lies in group `k / 128` of row `i`. -/
def wUp (q : SQ.Idx → BitVec 32) (s z : SG.Idx → EReal) (i : Fin 11008) (k : Fin 4096) : EReal :=
  deq (q (ix2 i k)) (z (ix2 i ⟨k.val / 128, grp32 k⟩)) (s (ix2 i ⟨k.val / 128, grp32 k⟩))

/-- Entry `(j, i)` of the down weight. -/
def wDown (q : SQd.Idx → BitVec 32) (s z : SGd.Idx → EReal) (j : Fin 4096) (i : Fin 11008) : EReal :=
  deq (q (ix2 j i)) (z (ix2 j ⟨i.val / 128, grp86 i⟩)) (s (ix2 j ⟨i.val / 128, grp86 i⟩))

/-- A row of activations against row `i` of a gate or up weight. -/
def proj (xrow : Fin 4096 → EReal) (q : SQ.Idx → BitVec 32) (s z : SG.Idx → EReal) (i : Fin 11008) : EReal :=
  ∑ k : Fin 4096, xrow k * wUp q s z i k

/-- The gated hidden value `(g · σ(g)) · u`. -/
def hidden (xrow : Fin 4096 → EReal) (q1 : SQ.Idx → BitVec 32) (s1 z1 : SG.Idx → EReal)
    (q2 : SQ.Idx → BitVec 32) (s2 z2 : SG.Idx → EReal) (i : Fin 11008) : EReal :=
  (proj xrow q1 s1 z1 i * Ideal.logistic (proj xrow q1 s1 z1 i)) * proj xrow q2 s2 z2 i

/-- Output `j` of one row: the hidden row against row `j` of the down weight. -/
def outRow (xrow : Fin 4096 → EReal) (q1 : SQ.Idx → BitVec 32) (s1 z1 : SG.Idx → EReal)
    (q2 : SQ.Idx → BitVec 32) (s2 z2 : SG.Idx → EReal)
    (q3 : SQd.Idx → BitVec 32) (s3 z3 : SGd.Idx → EReal) (j : Fin 4096) : EReal :=
  ∑ i : Fin 11008, hidden xrow q1 s1 z1 q2 s2 z2 i * wDown q3 s3 z3 j i

/-- The whole result: entry `(b, t, j)` is output `j` of row `(b, t)` of the activations. -/
def result (x : SX.Idx → EReal) (q1 q2 : SQ.Idx → BitVec 32) (q3 : SQd.Idx → BitVec 32)
    (s1 z1 s2 z2 : SG.Idx → EReal) (s3 z3 : SGd.Idx → EReal) : SX.Idx → EReal :=
  fun j => outRow (fun k => x (ix3 (j 0) (j 1) k)) q1 s1 z1 q2 s2 z2 q3 s3 z3 (j 2)

end Cert.Mlp

end
-- ==== Proof.DequantTile.lean ====
/-
  A dequantized weight tile read at an entry.

  A program dequantizes a tile of `R` rows and `C = G · 128` columns by viewing it as `[R, G, 128]`, subtracting
  the zero points `[R, G]` and multiplying by the scales `[R, G]`, each repeated along the last axis, and viewing the
  product as `[R, C]` again.  Row-major order makes entry `(p, k)` of the tile entry `(p, k / 128, k % 128)` of the
  three-axis view, so the tile's entry `(p, k)` is `(q_{p,k} − z_{p, k/128}) · s_{p, k/128}`.  Narrowing the
  product to a shorter float format changes nothing over the extended reals.
  Stated twice, for the two tile shapes that occur: 128 × 4096 in 32 groups, and 128 × 11008 in 86 groups.
-/
import Idealize.ShloMosaic.PureOps.Ideal
import Idealize.ShloMosaic.PureOps.Ideal.Laws
import Idealize.ShloMosaic.Lib.ValueIdx
import Idealize.ShloMosaic.Lib.Pipeline.Value
import proofs.«179572_j83416854823036_1_alg».proof.Proof.Spec

noncomputable section

namespace Cert.Mlp

open Idealize.ShloMosaic Idealize.ShloMosaic.ValueIdx

abbrev T128x4096 : Shape := ⟨2, ![128, 4096]⟩
abbrev T128x32 : Shape := ⟨2, ![128, 32]⟩
abbrev T128x32x128 : Shape := ⟨3, ![128, 32, 128]⟩
abbrev T128x32x1 : Shape := ⟨3, ![128, 32, 1]⟩
abbrev T128x11008 : Shape := ⟨2, ![128, 11008]⟩
abbrev T128x86 : Shape := ⟨2, ![128, 86]⟩
abbrev T128x86x128 : Shape := ⟨3, ![128, 86, 128]⟩
abbrev T128x86x1 : Shape := ⟨3, ![128, 86, 1]⟩

/-- The 128 × 4096 tile, 32 groups to a row, at entry `(p, k)`. -/
theorem deqTile32_apply (q : IVec T128x4096 32) (s z : FVec Ideal T128x32 .f32)
    (h1 : T128x4096.ShapeCasts T128x32x128) (h2 : T128x32.ShapeCasts T128x32x1)
    (h3 : T128x32x1.Broadcasts T128x32x128) (h4 : T128x32x128.ShapeCasts T128x4096)
    (hb : FTy.bits .bf16 < FTy.bits .f32) (p : Fin 128) (k : Fin 4096) :
    (truncf .bf16 (shapeCast T128x4096 (mulf (subf (sitofp .f32 (shapeCast T128x32x128 q h1))
        (broadcastTo T128x32x128 (shapeCast T128x32x1 z h2) h3))
        (broadcastTo T128x32x128 (shapeCast T128x32x1 s h2) h3)) h4) hb : FVec Ideal T128x4096 .bf16) (ix2 p k)
      = deq (q (ix2 p k)) (z (ix2 p ⟨k.val / 128, grp32 k⟩)) (s (ix2 p ⟨k.val / 128, grp32 k⟩)) := by
  have hk : k.val < 4096 := k.isLt
  have hp : p.val < 128 := p.isLt
  have hl : k.val % 128 < 128 := Nat.mod_lt _ (by decide)
  rw [truncf_apply]
  rw [shapeCast_apply _ h4 (ix2 p k) (ix3 p ⟨k.val / 128, grp32 k⟩ ⟨k.val % 128, hl⟩)
    (by rw [Shape.rowMajor_val_three, Shape.rowMajor_val_two]
        show (p.val * 32 + k.val / 128) * 128 + k.val % 128 = p.val * 4096 + k.val
        omega)]
  rw [mulf_apply, subf_apply, sitofp_apply]
  rw [shapeCast_apply q h1 (ix3 p ⟨k.val / 128, grp32 k⟩ ⟨k.val % 128, hl⟩) (ix2 p k)
    (by rw [Shape.rowMajor_val_three, Shape.rowMajor_val_two]
        show p.val * 4096 + k.val = (p.val * 32 + k.val / 128) * 128 + k.val % 128
        omega)]
  rw [broadcastTo_apply (shapeCast T128x32x1 z h2) h3 (ix3 p ⟨k.val / 128, grp32 k⟩ ⟨k.val % 128, hl⟩)
      (ix3 p ⟨k.val / 128, grp32 k⟩ (0 : Fin 1))
      (fun a => match a with
        | ⟨0, _⟩ => by show p.val = if (128 : Nat) = 1 then 0 else p.val; rw [if_neg (by decide)]
        | ⟨1, _⟩ => by show k.val / 128 = if (32 : Nat) = 1 then 0 else k.val / 128; rw [if_neg (by decide)]
        | ⟨2, _⟩ => by show (0 : Nat) = if (1 : Nat) = 1 then 0 else k.val % 128; rw [if_pos rfl])]
  rw [broadcastTo_apply (shapeCast T128x32x1 s h2) h3 (ix3 p ⟨k.val / 128, grp32 k⟩ ⟨k.val % 128, hl⟩)
      (ix3 p ⟨k.val / 128, grp32 k⟩ (0 : Fin 1))
      (fun a => match a with
        | ⟨0, _⟩ => by show p.val = if (128 : Nat) = 1 then 0 else p.val; rw [if_neg (by decide)]
        | ⟨1, _⟩ => by show k.val / 128 = if (32 : Nat) = 1 then 0 else k.val / 128; rw [if_neg (by decide)]
        | ⟨2, _⟩ => by show (0 : Nat) = if (1 : Nat) = 1 then 0 else k.val % 128; rw [if_pos rfl])]
  rw [shapeCast_apply z h2 (ix3 p ⟨k.val / 128, grp32 k⟩ (0 : Fin 1)) (ix2 p ⟨k.val / 128, grp32 k⟩)
    (by rw [Shape.rowMajor_val_three, Shape.rowMajor_val_two]
        show p.val * 32 + k.val / 128 = (p.val * 32 + k.val / 128) * 1 + 0
        omega)]
  rw [shapeCast_apply s h2 (ix3 p ⟨k.val / 128, grp32 k⟩ (0 : Fin 1)) (ix2 p ⟨k.val / 128, grp32 k⟩)
    (by rw [Shape.rowMajor_val_three, Shape.rowMajor_val_two]
        show p.val * 32 + k.val / 128 = (p.val * 32 + k.val / 128) * 1 + 0
        omega)]
  rfl

/-- The 128 × 11008 tile, 86 groups to a row, at entry `(p, k)`. -/
theorem deqTile86_apply (q : IVec T128x11008 32) (s z : FVec Ideal T128x86 .f32)
    (h1 : T128x11008.ShapeCasts T128x86x128) (h2 : T128x86.ShapeCasts T128x86x1)
    (h3 : T128x86x1.Broadcasts T128x86x128) (h4 : T128x86x128.ShapeCasts T128x11008)
    (hb : FTy.bits .bf16 < FTy.bits .f32) (p : Fin 128) (k : Fin 11008) :
    (truncf .bf16 (shapeCast T128x11008 (mulf (subf (sitofp .f32 (shapeCast T128x86x128 q h1))
        (broadcastTo T128x86x128 (shapeCast T128x86x1 z h2) h3))
        (broadcastTo T128x86x128 (shapeCast T128x86x1 s h2) h3)) h4) hb : FVec Ideal T128x11008 .bf16) (ix2 p k)
      = deq (q (ix2 p k)) (z (ix2 p ⟨k.val / 128, grp86 k⟩)) (s (ix2 p ⟨k.val / 128, grp86 k⟩)) := by
  have hk : k.val < 11008 := k.isLt
  have hp : p.val < 128 := p.isLt
  have hl : k.val % 128 < 128 := Nat.mod_lt _ (by decide)
  rw [truncf_apply]
  rw [shapeCast_apply _ h4 (ix2 p k) (ix3 p ⟨k.val / 128, grp86 k⟩ ⟨k.val % 128, hl⟩)
    (by rw [Shape.rowMajor_val_three, Shape.rowMajor_val_two]
        show (p.val * 86 + k.val / 128) * 128 + k.val % 128 = p.val * 11008 + k.val
        omega)]
  rw [mulf_apply, subf_apply, sitofp_apply]
  rw [shapeCast_apply q h1 (ix3 p ⟨k.val / 128, grp86 k⟩ ⟨k.val % 128, hl⟩) (ix2 p k)
    (by rw [Shape.rowMajor_val_three, Shape.rowMajor_val_two]
        show p.val * 11008 + k.val = (p.val * 86 + k.val / 128) * 128 + k.val % 128
        omega)]
  rw [broadcastTo_apply (shapeCast T128x86x1 z h2) h3 (ix3 p ⟨k.val / 128, grp86 k⟩ ⟨k.val % 128, hl⟩)
      (ix3 p ⟨k.val / 128, grp86 k⟩ (0 : Fin 1))
      (fun a => match a with
        | ⟨0, _⟩ => by show p.val = if (128 : Nat) = 1 then 0 else p.val; rw [if_neg (by decide)]
        | ⟨1, _⟩ => by show k.val / 128 = if (86 : Nat) = 1 then 0 else k.val / 128; rw [if_neg (by decide)]
        | ⟨2, _⟩ => by show (0 : Nat) = if (1 : Nat) = 1 then 0 else k.val % 128; rw [if_pos rfl])]
  rw [broadcastTo_apply (shapeCast T128x86x1 s h2) h3 (ix3 p ⟨k.val / 128, grp86 k⟩ ⟨k.val % 128, hl⟩)
      (ix3 p ⟨k.val / 128, grp86 k⟩ (0 : Fin 1))
      (fun a => match a with
        | ⟨0, _⟩ => by show p.val = if (128 : Nat) = 1 then 0 else p.val; rw [if_neg (by decide)]
        | ⟨1, _⟩ => by show k.val / 128 = if (86 : Nat) = 1 then 0 else k.val / 128; rw [if_neg (by decide)]
        | ⟨2, _⟩ => by show (0 : Nat) = if (1 : Nat) = 1 then 0 else k.val % 128; rw [if_pos rfl])]
  rw [shapeCast_apply z h2 (ix3 p ⟨k.val / 128, grp86 k⟩ (0 : Fin 1)) (ix2 p ⟨k.val / 128, grp86 k⟩)
    (by rw [Shape.rowMajor_val_three, Shape.rowMajor_val_two]
        show p.val * 86 + k.val / 128 = (p.val * 86 + k.val / 128) * 1 + 0
        omega)]
  rw [shapeCast_apply s h2 (ix3 p ⟨k.val / 128, grp86 k⟩ (0 : Fin 1)) (ix2 p ⟨k.val / 128, grp86 k⟩)
    (by rw [Shape.rowMajor_val_three, Shape.rowMajor_val_two]
        show p.val * 86 + k.val / 128 = (p.val * 86 + k.val / 128) * 1 + 0
        omega)]
  rfl

end Cert.Mlp

end
-- ==== Proof.KernelTile.lean ====
/-
  What each kernel body stores, read at one entry of its output block, over the extended reals.

  The first body multiplies a block of 1024 activation rows against two dequantized 128-row weight tiles over all
  4096 columns and stores `(g · σ(g)) · u`; the second multiplies a block of 256 hidden rows against one dequantized
  128-row tile over all 11008 columns and stores the products' sums.  Each matrix product into a zero accumulator
  is, entry by entry, the plain sum over the contracted axis; each weight tile is read by its entry formula.
-/
import proofs.«179572_j83416854823036_1_alg».proof.Proof.Gen.KernelIdeal.Skeleton
import proofs.«179572_j83416854823036_1_alg».proof.Proof.DequantTile
import Idealize.ShloMosaic.PureOps.Ideal.Laws
import Idealize.ShloMosaic.Lib.ValueIdx
import Idealize.ShloMosaic.Lib.Pipeline.Value

noncomputable section

namespace Cert.Mlp.Tile

open Idealize.ShloMosaic Idealize.ShloMosaic.ValueIdx Cert.KernelIdeal Cert.KernelIdeal.Gen Cert.KernelIdeal.Facts₀ Cert.Mlp

theorem mm_gateup_lhs0 (j : S1024x128.Idx) (q : dot_S1024x4096_S128x4096_S1024x128_1_1_0_0_n_n.contr.Idx) : (dot_S1024x4096_S128x4096_S1024x128_1_1_0_0_n_n.lhsIdx j q 0).val = (j 0).val := by
  unfold DotDims.lhsIdx
  rw [dif_neg (show ¬(0 : Fin S1024x4096.rank) ∈ dot_S1024x4096_S128x4096_S1024x128_1_1_0_0_n_n.lhsBatch by decide), dif_pos (show (0 : Fin S1024x4096.rank) ∈ dot_S1024x4096_S128x4096_S1024x128_1_1_0_0_n_n.lhsNonContracting by decide)]
  rfl
theorem mm_gateup_lhs1 (j : S1024x128.Idx) (q : dot_S1024x4096_S128x4096_S1024x128_1_1_0_0_n_n.contr.Idx) : (dot_S1024x4096_S128x4096_S1024x128_1_1_0_0_n_n.lhsIdx j q 1).val = (q ⟨0, by decide⟩).val :=
  dot_S1024x4096_S128x4096_S1024x128_1_1_0_0_n_n.lhsIdx_val_of_single rfl j q
theorem mm_gateup_rhs0 (j : S1024x128.Idx) (q : dot_S1024x4096_S128x4096_S1024x128_1_1_0_0_n_n.contr.Idx) : (dot_S1024x4096_S128x4096_S1024x128_1_1_0_0_n_n.rhsIdx j q 0).val = (j 1).val := by
  unfold DotDims.rhsIdx
  rw [dif_neg (show ¬(0 : Fin S128x4096.rank) ∈ dot_S1024x4096_S128x4096_S1024x128_1_1_0_0_n_n.rhsBatch by decide), dif_pos (show (0 : Fin S128x4096.rank) ∈ dot_S1024x4096_S128x4096_S1024x128_1_1_0_0_n_n.rhsNonContracting by decide)]
  rfl
theorem mm_gateup_rhs1 (j : S1024x128.Idx) (q : dot_S1024x4096_S128x4096_S1024x128_1_1_0_0_n_n.contr.Idx) : (dot_S1024x4096_S128x4096_S1024x128_1_1_0_0_n_n.rhsIdx j q 1).val = (q ⟨0, by decide⟩).val :=
  dot_S1024x4096_S128x4096_S1024x128_1_1_0_0_n_n.rhsIdx_val_of_single rfl j q

/-- A 1024 × 4096 block against the transpose of a 128 × 4096 block, accumulated into zero: entry `(p, q)` is the sum over
    the 4096 contracted columns. -/
theorem mm_gateup_apply (a : FVec Ideal S1024x4096 .bf16) (b : FVec Ideal S128x4096 .bf16) (p : Fin 1024) (q : Fin 128) :
    matmul dot_S1024x4096_S128x4096_S1024x128_1_1_0_0_n_n none a b (constant S1024x128 .f32 0x00000000#32) (ix2 p q)
      = ∑ k : Fin 4096, a (ix2 p k) * b (ix2 q k) := by
  show FloatOps.matmul dot_S1024x4096_S128x4096_S1024x128_1_1_0_0_n_n none a b (constant S1024x128 .f32 0x00000000#32) (ix2 p q) = _
  rw [Ideal.matmul_constant_zero_apply, ← Equiv.sum_comp (ValueIdx.contrEquiv1 dot_S1024x4096_S128x4096_S1024x128_1_1_0_0_n_n 4096 rfl rfl).symm]
  refine Finset.sum_congr rfl fun k _ => ?_
  have hk := ValueIdx.contrEquiv1_symm_val dot_S1024x4096_S128x4096_S1024x128_1_1_0_0_n_n 4096 rfl rfl k
  have el : dot_S1024x4096_S128x4096_S1024x128_1_1_0_0_n_n.lhsIdx (ix2 p q) ((ValueIdx.contrEquiv1 dot_S1024x4096_S128x4096_S1024x128_1_1_0_0_n_n 4096 rfl rfl).symm k) = ix2 p k := funext fun a => Fin.ext (by
    match a with
    | ⟨0, _⟩ => exact mm_gateup_lhs0 _ _
    | ⟨1, _⟩ => exact (mm_gateup_lhs1 _ _).trans hk)
  have er : dot_S1024x4096_S128x4096_S1024x128_1_1_0_0_n_n.rhsIdx (ix2 p q) ((ValueIdx.contrEquiv1 dot_S1024x4096_S128x4096_S1024x128_1_1_0_0_n_n 4096 rfl rfl).symm k) = ix2 q k := funext fun a => Fin.ext (by
    match a with
    | ⟨0, _⟩ => exact mm_gateup_rhs0 _ _
    | ⟨1, _⟩ => exact (mm_gateup_rhs1 _ _).trans hk)
  rw [el, er]

theorem mm_down_lhs0 (j : S256x128.Idx) (q : dot_S256x11008_S128x11008_S256x128_1_1_0_0_n_n.contr.Idx) : (dot_S256x11008_S128x11008_S256x128_1_1_0_0_n_n.lhsIdx j q 0).val = (j 0).val := by
  unfold DotDims.lhsIdx
  rw [dif_neg (show ¬(0 : Fin S256x11008.rank) ∈ dot_S256x11008_S128x11008_S256x128_1_1_0_0_n_n.lhsBatch by decide), dif_pos (show (0 : Fin S256x11008.rank) ∈ dot_S256x11008_S128x11008_S256x128_1_1_0_0_n_n.lhsNonContracting by decide)]
  rfl
theorem mm_down_lhs1 (j : S256x128.Idx) (q : dot_S256x11008_S128x11008_S256x128_1_1_0_0_n_n.contr.Idx) : (dot_S256x11008_S128x11008_S256x128_1_1_0_0_n_n.lhsIdx j q 1).val = (q ⟨0, by decide⟩).val :=
  dot_S256x11008_S128x11008_S256x128_1_1_0_0_n_n.lhsIdx_val_of_single rfl j q
theorem mm_down_rhs0 (j : S256x128.Idx) (q : dot_S256x11008_S128x11008_S256x128_1_1_0_0_n_n.contr.Idx) : (dot_S256x11008_S128x11008_S256x128_1_1_0_0_n_n.rhsIdx j q 0).val = (j 1).val := by
  unfold DotDims.rhsIdx
  rw [dif_neg (show ¬(0 : Fin S128x11008.rank) ∈ dot_S256x11008_S128x11008_S256x128_1_1_0_0_n_n.rhsBatch by decide), dif_pos (show (0 : Fin S128x11008.rank) ∈ dot_S256x11008_S128x11008_S256x128_1_1_0_0_n_n.rhsNonContracting by decide)]
  rfl
theorem mm_down_rhs1 (j : S256x128.Idx) (q : dot_S256x11008_S128x11008_S256x128_1_1_0_0_n_n.contr.Idx) : (dot_S256x11008_S128x11008_S256x128_1_1_0_0_n_n.rhsIdx j q 1).val = (q ⟨0, by decide⟩).val :=
  dot_S256x11008_S128x11008_S256x128_1_1_0_0_n_n.rhsIdx_val_of_single rfl j q

/-- A 256 × 11008 block against the transpose of a 128 × 11008 block, accumulated into zero: entry `(p, q)` is the sum over
    the 11008 contracted columns. -/
theorem mm_down_apply (a : FVec Ideal S256x11008 .bf16) (b : FVec Ideal S128x11008 .bf16) (p : Fin 256) (q : Fin 128) :
    matmul dot_S256x11008_S128x11008_S256x128_1_1_0_0_n_n none a b (constant S256x128 .f32 0x00000000#32) (ix2 p q)
      = ∑ k : Fin 11008, a (ix2 p k) * b (ix2 q k) := by
  show FloatOps.matmul dot_S256x11008_S128x11008_S256x128_1_1_0_0_n_n none a b (constant S256x128 .f32 0x00000000#32) (ix2 p q) = _
  rw [Ideal.matmul_constant_zero_apply, ← Equiv.sum_comp (ValueIdx.contrEquiv1 dot_S256x11008_S128x11008_S256x128_1_1_0_0_n_n 11008 rfl rfl).symm]
  refine Finset.sum_congr rfl fun k _ => ?_
  have hk := ValueIdx.contrEquiv1_symm_val dot_S256x11008_S128x11008_S256x128_1_1_0_0_n_n 11008 rfl rfl k
  have el : dot_S256x11008_S128x11008_S256x128_1_1_0_0_n_n.lhsIdx (ix2 p q) ((ValueIdx.contrEquiv1 dot_S256x11008_S128x11008_S256x128_1_1_0_0_n_n 11008 rfl rfl).symm k) = ix2 p k := funext fun a => Fin.ext (by
    match a with
    | ⟨0, _⟩ => exact mm_down_lhs0 _ _
    | ⟨1, _⟩ => exact (mm_down_lhs1 _ _).trans hk)
  have er : dot_S256x11008_S128x11008_S256x128_1_1_0_0_n_n.rhsIdx (ix2 p q) ((ValueIdx.contrEquiv1 dot_S256x11008_S128x11008_S256x128_1_1_0_0_n_n 11008 rfl rfl).symm k) = ix2 q k := funext fun a => Fin.ext (by
    match a with
    | ⟨0, _⟩ => exact mm_down_rhs0 _ _
    | ⟨1, _⟩ => exact (mm_down_rhs1 _ _).trans hk)
  rw [el, er]

/-- Row `p` of an activation block against row `r` of a dequantized gate or up tile. -/
def tproj (x : Vec Ideal S1024x4096 .bf16) (q : Vec Ideal S128x4096 .i32) (s z : Vec Ideal S128x32 .f32)
    (p : Fin 1024) (r : Fin 128) : EReal :=
  ∑ k : Fin 4096, x (ix2 p k) * deq (q (ix2 r k)) (z (ix2 r ⟨k.val / 128, grp32 k⟩)) (s (ix2 r ⟨k.val / 128, grp32 k⟩))

/-- The first body's stored block at `(p, r)`: `(g · σ(g)) · u` of activation row `p` and weight rows `r`. -/
theorem gateup_apply (x0 : Vec Ideal S1024x4096 .bf16) (x1 : Vec Ideal S128x4096 .i32) (x2 x3 : Vec Ideal S128x32 .f32)
    (x4 : Vec Ideal S128x4096 .i32) (x5 x6 : Vec Ideal S128x32 .f32) (p : Fin 1024) (r : Fin 128) :
    k0_pay1 (F := Ideal) x0 x1 x2 x3 x4 x5 x6 (ix2 p r)
      = (tproj x0 x1 x2 x3 p r * Ideal.logistic (tproj x0 x1 x2 x3 p r)) * tproj x0 x4 x5 x6 p r := by
  unfold k0_pay1
  rw [truncf_apply, mulf_apply, mulf_apply]
  show (_ * Ideal.logistic _) * _ = _
  rw [mm_gateup_apply, mm_gateup_apply]
  unfold tproj
  simp only [shapeCast_self, deqTile32_apply]

/-- The second body's stored block at `(p, r)`: hidden row `p` against row `r` of the dequantized down tile. -/
theorem down_apply (x0 : Vec Ideal S256x11008 .bf16) (x1 : Vec Ideal S128x11008 .i32) (x2 x3 : Vec Ideal S128x86 .f32)
    (p : Fin 256) (r : Fin 128) :
    k1_pay1 (F := Ideal) x0 x1 x2 x3 (ix2 p r)
      = ∑ i : Fin 11008, x0 (ix2 p i) * deq (x1 (ix2 r i)) (x3 (ix2 r ⟨i.val / 128, grp86 i⟩)) (x2 (ix2 r ⟨i.val / 128, grp86 i⟩)) := by
  unfold k1_pay1
  rw [mm_down_apply]
  simp only [shapeCast_self, deqTile86_apply]

end Cert.Mlp.Tile

end
-- ==== Proof.GateUp.lean ====
/-
  The first pallas_call's output array as one function of the arrays it reads.

  Its grid is 86 × 8: point `t` handles weight rows `[128·(t/8), 128·(t/8) + 128)` and activation rows
  `[1024·(t%8), 1024·(t%8) + 1024)`, each over all 4096 columns, and writes the 1024 × 128 block at block position
  `(t%8, t/8)` of the `[8192, 11008]` hidden array.  An entry of that block depends on one activation row and one row
  of each weight, so what point `t` writes is block `t` of ONE array — entry `(R, I)` is the gated hidden value of
  activation row `R` and weight rows `I` — and the 688 blocks tile the array: it ends holding that array.
-/
import proofs.«179572_j83416854823036_1_alg».proof.Proof.Gen.KernelIdeal.Frame
import proofs.«179572_j83416854823036_1_alg».proof.Proof.KernelTile

set_option maxRecDepth 16384

noncomputable section

namespace Cert.Mlp.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Facts₀ Cert.Mlp

/-- The hidden array `[8192, 11008]`: entry `(R, I)` from row `R` of the activations `X`. -/
def hiddenArr (X : S8192x4096.Idx → EReal) (Q1 : S11008x4096.Idx → BitVec 32) (S1 Z1 : S11008x32.Idx → EReal)
    (Q2 : S11008x4096.Idx → BitVec 32) (S2 Z2 : S11008x32.Idx → EReal) : S8192x11008.Idx → EReal :=
  fun j => hidden (fun k => X (ix2 (j 0) k)) Q1 S1 Z1 Q2 S2 Z2 (j 1)

/-- Blocks that are the restrictions of the arrays to activation rows `1024·a + ·` and weight rows `128·b + ·` give, at
    `(p, r)`, the hidden array's entry `(1024·a + p, 128·b + r)`. -/
theorem hidden_of_blocks (X : S8192x4096.Idx → EReal) (Q1 : S11008x4096.Idx → BitVec 32) (S1 Z1 : S11008x32.Idx → EReal)
    (Q2 : S11008x4096.Idx → BitVec 32) (S2 Z2 : S11008x32.Idx → EReal)
    (x0 : Vec Ideal S1024x4096 .bf16) (x1 : Vec Ideal S128x4096 .i32) (x2 x3 : Vec Ideal S128x32 .f32)
    (x4 : Vec Ideal S128x4096 .i32) (x5 x6 : Vec Ideal S128x32 .f32) (a b : Nat)
    (h0 : ∀ (p : Fin 1024) (k : Fin 4096) (R : Fin 8192), R.val = a * 1024 + p.val → x0 (ix2 p k) = X (ix2 R k))
    (h1 : ∀ (r : Fin 128) (k : Fin 4096) (R : Fin 11008), R.val = b * 128 + r.val → x1 (ix2 r k) = Q1 (ix2 R k))
    (h2 : ∀ (r : Fin 128) (g : Fin 32) (R : Fin 11008), R.val = b * 128 + r.val → x2 (ix2 r g) = S1 (ix2 R g))
    (h3 : ∀ (r : Fin 128) (g : Fin 32) (R : Fin 11008), R.val = b * 128 + r.val → x3 (ix2 r g) = Z1 (ix2 R g))
    (h4 : ∀ (r : Fin 128) (k : Fin 4096) (R : Fin 11008), R.val = b * 128 + r.val → x4 (ix2 r k) = Q2 (ix2 R k))
    (h5 : ∀ (r : Fin 128) (g : Fin 32) (R : Fin 11008), R.val = b * 128 + r.val → x5 (ix2 r g) = S2 (ix2 R g))
    (h6 : ∀ (r : Fin 128) (g : Fin 32) (R : Fin 11008), R.val = b * 128 + r.val → x6 (ix2 r g) = Z2 (ix2 R g))
    (p : Fin 1024) (r : Fin 128) (J : S8192x11008.Idx)
    (hJ0 : (J 0).val = a * 1024 + p.val) (hJ1 : (J 1).val = b * 128 + r.val) :
    k0_pay1 (F := Ideal) x0 x1 x2 x3 x4 x5 x6 (ix2 p r) = hiddenArr X Q1 S1 Z1 Q2 S2 Z2 J := by
  rw [Tile.gateup_apply]
  unfold hiddenArr hidden
  have hg : Tile.tproj x0 x1 x2 x3 p r = proj (fun k => X (ix2 (J 0) k)) Q1 S1 Z1 (J 1) := by
    unfold Tile.tproj proj wUp
    refine Finset.sum_congr rfl fun k _ => ?_
    rw [h0 p k (J 0) hJ0, h1 r k (J 1) hJ1, h2 r ⟨k.val / 128, grp32 k⟩ (J 1) hJ1, h3 r ⟨k.val / 128, grp32 k⟩ (J 1) hJ1]
  have hu : Tile.tproj x0 x4 x5 x6 p r = proj (fun k => X (ix2 (J 0) k)) Q2 S2 Z2 (J 1) := by
    unfold Tile.tproj proj wUp
    refine Finset.sum_congr rfl fun k _ => ?_
    rw [h0 p k (J 0) hJ0, h4 r k (J 1) hJ1, h5 r ⟨k.val / 128, grp32 k⟩ (J 1) hJ1, h6 r ⟨k.val / 128, grp32 k⟩ (J 1) hJ1]
  rw [hg, hu]

theorem hz : (![0, 0] : Fin 2 → Nat) = fun _ => 0 := funext fun a => by fin_cases a <;> rfl

/-- The index maps over the grid: the activations move with `t % 8`, the weights with `t / 8`, the output with both. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = t.val % 8 ∧ win0_7.index t (1 : Fin 2) = t.val / 8 :=
  (by decide +kernel : ∀ t : Fin grid0.N, _)

section
variable (V : (c : Dev nD) → (b : Ref sig .tc) → Buf (Elt Ideal) ((c : Thread nD τ).loc b))

/-- What point `t` writes back is block `t` of the hidden array of the arrays as the call finds them. -/
theorem flushed_eq (c : Dev nD) (t : Fin cfg0.N) :
    (dat0 V c).flushed 7 t = ((cfg0.win 7).blk t).view.read (Elt Ideal)
      (hiddenArr (V c main_v1) (V c main_arg1) (V c main_arg4) (V c main_arg5) (V c main_arg2) (V c main_arg6) (V c main_arg7)) := by
  show (cfg0.win 7).cut (grid0.coords t) ((dat0 V c).after 7 t) = _
  rw [after0_7]
  unfold out0_7
  rw [View.canon_unit_zero hz]
  simp only [View.ld_unit_zero (S := S1024x4096) hz, View.ld_unit_zero (S := S128x4096) hz, View.ld_unit_zero (S := S128x32) hz]
  obtain ⟨e00, e01, e10, e11, e20, e21, e30, e31, e40, e41, e50, e51, e60, e61, e70, e71⟩ := idx_facts t
  have ht : t.val < 688 := t.isLt
  refine funext fun (j : S1024x128.Idx) => ?_
  obtain ⟨p, r, rfl⟩ : ∃ (p : Fin 1024) (r : Fin 128), j = ix2 p r := ⟨j 0, j 1, eq_ix2 j⟩
  refine hidden_of_blocks (V c main_v1) (V c main_arg1) (V c main_arg4) (V c main_arg5) (V c main_arg2) (V c main_arg6) (V c main_arg7)
    (iblk0 V c 0 t) (iblk0 V c 1 t) (iblk0 V c 2 t) (iblk0 V c 3 t) (iblk0 V c 4 t) (iblk0 V c 5 t) (iblk0 V c 6 t)
    (t.val % 8) (t.val / 8) ?_ ?_ ?_ ?_ ?_ ?_ ?_ p r (((cfg0.win 7).blk t).view.emb (ix2 p r)) ?_ ?_
  · intro p' k R hR
    show V c main_v1 (((cfg0.win 0).blk t).view.emb (ix2 p' k)) = V c main_v1 (ix2 R k)
    refine congrArg (V c main_v1) (funext fun a => Fin.ext ?_)
    match a with
    | ⟨0, _⟩ => show win0_0.index t (0 : Fin 2) * 1024 + 1 * p'.val = R.val; omega
    | ⟨1, _⟩ => show win0_0.index t (1 : Fin 2) * 4096 + 1 * k.val = k.val; omega
  · intro r' k R hR
    show V c main_arg1 (((cfg0.win 1).blk t).view.emb (ix2 r' k)) = V c main_arg1 (ix2 R k)
    refine congrArg (V c main_arg1) (funext fun a => Fin.ext ?_)
    match a with
    | ⟨0, _⟩ => show win0_1.index t (0 : Fin 2) * 128 + 1 * r'.val = R.val; omega
    | ⟨1, _⟩ => show win0_1.index t (1 : Fin 2) * 4096 + 1 * k.val = k.val; omega
  · intro r' g R hR
    show V c main_arg4 (((cfg0.win 2).blk t).view.emb (ix2 r' g)) = V c main_arg4 (ix2 R g)
    refine congrArg (V c main_arg4) (funext fun a => Fin.ext ?_)
    match a with
    | ⟨0, _⟩ => show win0_2.index t (0 : Fin 2) * 128 + 1 * r'.val = R.val; omega
    | ⟨1, _⟩ => show win0_2.index t (1 : Fin 2) * 32 + 1 * g.val = g.val; omega
  · intro r' g R hR
    show V c main_arg5 (((cfg0.win 3).blk t).view.emb (ix2 r' g)) = V c main_arg5 (ix2 R g)
    refine congrArg (V c main_arg5) (funext fun a => Fin.ext ?_)
    match a with
    | ⟨0, _⟩ => show win0_3.index t (0 : Fin 2) * 128 + 1 * r'.val = R.val; omega
    | ⟨1, _⟩ => show win0_3.index t (1 : Fin 2) * 32 + 1 * g.val = g.val; omega
  · intro r' k R hR
    show V c main_arg2 (((cfg0.win 4).blk t).view.emb (ix2 r' k)) = V c main_arg2 (ix2 R k)
    refine congrArg (V c main_arg2) (funext fun a => Fin.ext ?_)
    match a with
    | ⟨0, _⟩ => show win0_4.index t (0 : Fin 2) * 128 + 1 * r'.val = R.val; omega
    | ⟨1, _⟩ => show win0_4.index t (1 : Fin 2) * 4096 + 1 * k.val = k.val; omega
  · intro r' g R hR
    show V c main_arg6 (((cfg0.win 5).blk t).view.emb (ix2 r' g)) = V c main_arg6 (ix2 R g)
    refine congrArg (V c main_arg6) (funext fun a => Fin.ext ?_)
    match a with
    | ⟨0, _⟩ => show win0_5.index t (0 : Fin 2) * 128 + 1 * r'.val = R.val; omega
    | ⟨1, _⟩ => show win0_5.index t (1 : Fin 2) * 32 + 1 * g.val = g.val; omega
  · intro r' g R hR
    show V c main_arg7 (((cfg0.win 6).blk t).view.emb (ix2 r' g)) = V c main_arg7 (ix2 R g)
    refine congrArg (V c main_arg7) (funext fun a => Fin.ext ?_)
    match a with
    | ⟨0, _⟩ => show win0_6.index t (0 : Fin 2) * 128 + 1 * r'.val = R.val; omega
    | ⟨1, _⟩ => show win0_6.index t (1 : Fin 2) * 32 + 1 * g.val = g.val; omega
  · show win0_7.index t (0 : Fin 2) * 1024 + 1 * p.val = t.val % 8 * 1024 + p.val; omega
  · show win0_7.index t (1 : Fin 2) * 128 + 1 * r.val = t.val / 8 * 128 + r.val; omega

/-- An index of the hidden array is in point `t`'s block iff each coordinate is in the block's range on its axis. -/
theorem mem_blk (t : Fin cfg0.N) (i : S8192x11008.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v2).slice (win0_7.rect t)).set ↔ _
  rw [View.set_slice_whole, Rect.mem_set_unit]
  exact Iff.rfl

/-- Every entry `(R, I)` is in the block of the point `t = 8·(I / 128) + R / 1024`, and every point writes back. -/
theorem cover (i : S8192x11008.Idx) : ∃ t : Fin cfg0.N, (cfg0.win 7).flush t = true ∧ i ∈ ((cfg0.win 7).blk t).view.set := by
  have hi0 : (i 0).val < 8192 := (i 0).isLt
  have hi1 : (i 1).val < 11008 := (i 1).isLt
  have hlt : (i 1).val / 128 * 8 + (i 0).val / 1024 < 688 := by omega
  obtain ⟨-, -, -, -, -, -, -, -, -, -, -, -, -, -, e70, e71⟩ := idx_facts ⟨(i 1).val / 128 * 8 + (i 0).val / 1024, hlt⟩
  refine ⟨⟨(i 1).val / 128 * 8 + (i 0).val / 1024, hlt⟩, flush0_7 _, ?_⟩
  rw [mem_blk]
  intro a
  match a with
  | ⟨0, _⟩ =>
    show win0_7.index ⟨(i 1).val / 128 * 8 + (i 0).val / 1024, hlt⟩ (0 : Fin 2) * 1024 ≤ (i 0).val ∧ (i 0).val < win0_7.index ⟨(i 1).val / 128 * 8 + (i 0).val / 1024, hlt⟩ (0 : Fin 2) * 1024 + 1024
    rw [e70]; show ((i 1).val / 128 * 8 + (i 0).val / 1024) % 8 * 1024 ≤ (i 0).val ∧ (i 0).val < ((i 1).val / 128 * 8 + (i 0).val / 1024) % 8 * 1024 + 1024; omega
  | ⟨1, _⟩ =>
    show win0_7.index ⟨(i 1).val / 128 * 8 + (i 0).val / 1024, hlt⟩ (1 : Fin 2) * 128 ≤ (i 1).val ∧ (i 1).val < win0_7.index ⟨(i 1).val / 128 * 8 + (i 0).val / 1024, hlt⟩ (1 : Fin 2) * 128 + 128
    rw [e71]; show ((i 1).val / 128 * 8 + (i 0).val / 1024) / 8 * 128 ≤ (i 1).val ∧ (i 1).val < ((i 1).val / 128 * 8 + (i 0).val / 1024) / 8 * 128 + 128; omega

/-- The hidden array after the call. -/
theorem final (c : Dev nD) : (dat0 V c).arrAt 7 cfg0.N
    = hiddenArr (V c main_v1) (V c main_arg1) (V c main_arg4) (V c main_arg5) (V c main_arg2) (V c main_arg6) (V c main_arg7) :=
  (dat0 V c).arrAt_eq_of_cover 7 _ (fun t _ => flushed_eq V c t) cover

end

end Cert.Mlp.GateUp

end
-- ==== Proof.Down.lean ====
/-
  The second pallas_call's output array as one function of the arrays it reads.

  Its grid is 32 × 32: point `t` handles down-weight rows `[128·(t/32), 128·(t/32) + 128)` and hidden rows
  `[256·(t%32), 256·(t%32) + 256)`, each over all 11008 columns, and writes the 256 × 128 block at block position
  `(t%32, t/32)` of the `[8192, 4096]` output.  Entry `(R, J)` of the output is hidden row `R` against row `J` of the
  down weight, whatever point writes it, and the 1024 blocks tile the array.
-/
import proofs.«179572_j83416854823036_1_alg».proof.Proof.Gen.KernelIdeal.Frame
import proofs.«179572_j83416854823036_1_alg».proof.Proof.KernelTile

set_option maxRecDepth 16384

noncomputable section

namespace Cert.Mlp.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Facts₀ Cert.Mlp

/-- The output array `[8192, 4096]`: entry `(R, J)` is row `R` of the hidden array `H` against row `J` of the down weight. -/
def outArr (H : S8192x11008.Idx → EReal) (Q3 : S4096x11008.Idx → BitVec 32) (S3 Z3 : S4096x86.Idx → EReal) :
    S8192x4096.Idx → EReal :=
  fun j => ∑ i : Fin 11008, H (ix2 (j 0) i) * wDown Q3 S3 Z3 (j 1) i

/-- Blocks that are the restrictions of the arrays to hidden rows `256·a + ·` and weight rows `128·b + ·` give, at
    `(p, r)`, the output array's entry `(256·a + p, 128·b + r)`. -/
theorem out_of_blocks (H : S8192x11008.Idx → EReal) (Q3 : S4096x11008.Idx → BitVec 32) (S3 Z3 : S4096x86.Idx → EReal)
    (x0 : Vec Ideal S256x11008 .bf16) (x1 : Vec Ideal S128x11008 .i32) (x2 x3 : Vec Ideal S128x86 .f32) (a b : Nat)
    (h0 : ∀ (p : Fin 256) (i : Fin 11008) (R : Fin 8192), R.val = a * 256 + p.val → x0 (ix2 p i) = H (ix2 R i))
    (h1 : ∀ (r : Fin 128) (i : Fin 11008) (R : Fin 4096), R.val = b * 128 + r.val → x1 (ix2 r i) = Q3 (ix2 R i))
    (h2 : ∀ (r : Fin 128) (g : Fin 86) (R : Fin 4096), R.val = b * 128 + r.val → x2 (ix2 r g) = S3 (ix2 R g))
    (h3 : ∀ (r : Fin 128) (g : Fin 86) (R : Fin 4096), R.val = b * 128 + r.val → x3 (ix2 r g) = Z3 (ix2 R g))
    (p : Fin 256) (r : Fin 128) (J : S8192x4096.Idx)
    (hJ0 : (J 0).val = a * 256 + p.val) (hJ1 : (J 1).val = b * 128 + r.val) :
    k1_pay1 (F := Ideal) x0 x1 x2 x3 (ix2 p r) = outArr H Q3 S3 Z3 J := by
  rw [Tile.down_apply]
  unfold outArr wDown
  refine Finset.sum_congr rfl fun i _ => ?_
  rw [h0 p i (J 0) hJ0, h1 r i (J 1) hJ1, h2 r ⟨i.val / 128, grp86 i⟩ (J 1) hJ1, h3 r ⟨i.val / 128, grp86 i⟩ (J 1) hJ1]

theorem hz : (![0, 0] : Fin 2 → Nat) = fun _ => 0 := funext fun a => by fin_cases a <;> rfl

/-- The index maps over the grid: the hidden rows move with `t % 32`, the weight with `t / 32`, the output with both. -/
theorem idx_facts : ∀ t : Fin cfg1.N,
    win1_0.index t (0 : Fin 2) = t.val % 32 ∧ win1_0.index t (1 : Fin 2) = 0
    ∧ win1_1.index t (0 : Fin 2) = t.val / 32 ∧ win1_1.index t (1 : Fin 2) = 0
    ∧ win1_2.index t (0 : Fin 2) = t.val / 32 ∧ win1_2.index t (1 : Fin 2) = 0
    ∧ win1_3.index t (0 : Fin 2) = t.val / 32 ∧ win1_3.index t (1 : Fin 2) = 0
    ∧ win1_4.index t (0 : Fin 2) = t.val % 32 ∧ win1_4.index t (1 : Fin 2) = t.val / 32 :=
  (by decide +kernel : ∀ t : Fin grid1.N, _)

section
variable (V : (c : Dev nD) → (b : Ref sig .tc) → Buf (Elt Ideal) ((c : Thread nD τ).loc b))

/-- What point `t` writes back is block `t` of the output array of the arrays as the call finds them. -/
theorem flushed_eq (c : Dev nD) (t : Fin cfg1.N) :
    (dat1 V c).flushed 4 t = ((cfg1.win 4).blk t).view.read (Elt Ideal)
      (outArr (V c main_v2) (V c main_arg3) (V c main_arg8) (V c main_arg9)) := by
  show (cfg1.win 4).cut (grid1.coords t) ((dat1 V c).after 4 t) = _
  rw [after1_4]
  unfold out1_4
  rw [View.canon_unit_zero hz]
  simp only [View.ld_unit_zero (S := S256x11008) hz, View.ld_unit_zero (S := S128x11008) hz, View.ld_unit_zero (S := S128x86) hz]
  obtain ⟨e00, e01, e10, e11, e20, e21, e30, e31, e40, e41⟩ := idx_facts t
  have ht : t.val < 1024 := t.isLt
  refine funext fun (j : S256x128.Idx) => ?_
  obtain ⟨p, r, rfl⟩ : ∃ (p : Fin 256) (r : Fin 128), j = ix2 p r := ⟨j 0, j 1, eq_ix2 j⟩
  refine out_of_blocks (V c main_v2) (V c main_arg3) (V c main_arg8) (V c main_arg9)
    (iblk1 V c 0 t) (iblk1 V c 1 t) (iblk1 V c 2 t) (iblk1 V c 3 t)
    (t.val % 32) (t.val / 32) ?_ ?_ ?_ ?_ p r (((cfg1.win 4).blk t).view.emb (ix2 p r)) ?_ ?_
  · intro p' i R hR
    show V c main_v2 (((cfg1.win 0).blk t).view.emb (ix2 p' i)) = V c main_v2 (ix2 R i)
    refine congrArg (V c main_v2) (funext fun a => Fin.ext ?_)
    match a with
    | ⟨0, _⟩ => show win1_0.index t (0 : Fin 2) * 256 + 1 * p'.val = R.val; omega
    | ⟨1, _⟩ => show win1_0.index t (1 : Fin 2) * 11008 + 1 * i.val = i.val; omega
  · intro r' i R hR
    show V c main_arg3 (((cfg1.win 1).blk t).view.emb (ix2 r' i)) = V c main_arg3 (ix2 R i)
    refine congrArg (V c main_arg3) (funext fun a => Fin.ext ?_)
    match a with
    | ⟨0, _⟩ => show win1_1.index t (0 : Fin 2) * 128 + 1 * r'.val = R.val; omega
    | ⟨1, _⟩ => show win1_1.index t (1 : Fin 2) * 11008 + 1 * i.val = i.val; omega
  · intro r' g R hR
    show V c main_arg8 (((cfg1.win 2).blk t).view.emb (ix2 r' g)) = V c main_arg8 (ix2 R g)
    refine congrArg (V c main_arg8) (funext fun a => Fin.ext ?_)
    match a with
    | ⟨0, _⟩ => show win1_2.index t (0 : Fin 2) * 128 + 1 * r'.val = R.val; omega
    | ⟨1, _⟩ => show win1_2.index t (1 : Fin 2) * 86 + 1 * g.val = g.val; omega
  · intro r' g R hR
    show V c main_arg9 (((cfg1.win 3).blk t).view.emb (ix2 r' g)) = V c main_arg9 (ix2 R g)
    refine congrArg (V c main_arg9) (funext fun a => Fin.ext ?_)
    match a with
    | ⟨0, _⟩ => show win1_3.index t (0 : Fin 2) * 128 + 1 * r'.val = R.val; omega
    | ⟨1, _⟩ => show win1_3.index t (1 : Fin 2) * 86 + 1 * g.val = g.val; omega
  · show win1_4.index t (0 : Fin 2) * 256 + 1 * p.val = t.val % 32 * 256 + p.val; omega
  · show win1_4.index t (1 : Fin 2) * 128 + 1 * r.val = t.val / 32 * 128 + r.val; omega

/-- An index of the output array is in point `t`'s block iff each coordinate is in the block's range on its axis. -/
theorem mem_blk (t : Fin cfg1.N) (i : S8192x4096.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v3).slice (win1_4.rect t)).set ↔ _
  rw [View.set_slice_whole, Rect.mem_set_unit]
  exact Iff.rfl

/-- Every entry `(R, J)` is in the block of the point `t = 32·(J / 128) + R / 256`, and every point writes back. -/
theorem cover (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  have hlt : (i 1).val / 128 * 32 + (i 0).val / 256 < 1024 := by omega
  obtain ⟨-, -, -, -, -, -, -, -, e40, e41⟩ := idx_facts ⟨(i 1).val / 128 * 32 + (i 0).val / 256, hlt⟩
  refine ⟨⟨(i 1).val / 128 * 32 + (i 0).val / 256, hlt⟩, flush1_4 _, ?_⟩
  rw [mem_blk]
  intro a
  match a with
  | ⟨0, _⟩ =>
    show win1_4.index ⟨(i 1).val / 128 * 32 + (i 0).val / 256, hlt⟩ (0 : Fin 2) * 256 ≤ (i 0).val ∧ (i 0).val < win1_4.index ⟨(i 1).val / 128 * 32 + (i 0).val / 256, hlt⟩ (0 : Fin 2) * 256 + 256
    rw [e40]; show ((i 1).val / 128 * 32 + (i 0).val / 256) % 32 * 256 ≤ (i 0).val ∧ (i 0).val < ((i 1).val / 128 * 32 + (i 0).val / 256) % 32 * 256 + 256; omega
  | ⟨1, _⟩ =>
    show win1_4.index ⟨(i 1).val / 128 * 32 + (i 0).val / 256, hlt⟩ (1 : Fin 2) * 128 ≤ (i 1).val ∧ (i 1).val < win1_4.index ⟨(i 1).val / 128 * 32 + (i 0).val / 256, hlt⟩ (1 : Fin 2) * 128 + 128
    rw [e41]; show ((i 1).val / 128 * 32 + (i 0).val / 256) / 32 * 128 ≤ (i 1).val ∧ (i 1).val < ((i 1).val / 128 * 32 + (i 0).val / 256) / 32 * 128 + 128; omega

/-- The output array after the call. -/
theorem final (c : Dev nD) : (dat1 V c).arrAt 4 cfg1.N
    = outArr (V c main_v2) (V c main_arg3) (V c main_arg8) (V c main_arg9) :=
  (dat1 V c).arrAt_eq_of_cover 4 _ (fun t _ => flushed_eq V c t) cover

end

end Cert.Mlp.Down

end
-- ==== Proof.Boundary.lean ====
/-
  The buffer contents at the boundaries of the idealized kernel program, read back to the launch memory.

  The run's result buffer holds the last boundary's contents `W4` there.  Walking back: the last stretch is one
  reshape of the second call's output buffer; that buffer after the second call is the call's output array; the
  second call reads the hidden buffer, which after the first call is the first call's output array, and the three
  down-weight arguments, which nothing before it writes; the first call reads the narrowed, reshaped activations
  — over the extended reals just the activations regrouped `[4, 2048, 4096] → [8192, 4096]` — and the six gate
  and up arguments, which nothing before it writes.
-/
import proofs.«179572_j83416854823036_1_alg».proof.Proof.Gen.KernelIdeal.Frame
import Idealize.ShloMosaic.Lib.StableHlo.Run

set_option maxRecDepth 16384

noncomputable section

namespace Cert.Mlp.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.StableHlo

variable {F : FTy → Type} [FloatOps F]
variable (m : (ℓ : Loc nD τ sig) → Buf (Elt F) ℓ) (ρ : Dev nD → PrngReg)

/-- The result buffer at the return: the second call's output buffer, regrouped. -/
theorem result_eq (c : Dev nD) :
    W4 m ρ c (Proc.devRef .tc main_v4)
      = shapeCast S4x2048x4096 (W3 m ρ c (Proc.devRef .tc main_v3)) Facts₀.shapeCasts_S8192x4096_S4x2048x4096 := by
  show StableHlo.after hostOps2 (W3 m ρ c) (Proc.devRef .tc main_v4) = _
  after_results
  rfl

/-- The second call's output buffer after it: the call's output array. -/
theorem out_eq (c : Dev nD) : W3 m ρ c (Proc.devRef .tc main_v3) = (dat1 (V2 m ρ) c).arrAt 4 cfg1.N :=
  W3_arr m ρ c 4

/-- The hidden buffer as the second call finds it: the first call's output array. -/
theorem hidden_eq (c : Dev nD) : V2 m ρ c main_v2 = (dat0 (V1 m ρ) c).arrAt 7 cfg0.N :=
  W2_arr m ρ c 7

/-- The activations as the first call finds them: regrouped and narrowed. -/
theorem acts_eq (c : Dev nD) :
    V1 m ρ c main_v1
      = (truncf .bf16 (shapeCast S8192x4096 (m ((c : Thread nD τ).loc main_arg0)) Facts₀.shapeCasts_S4x2048x4096_S8192x4096) Facts₀.bitsLt_bf16_f32
          : FVec F S8192x4096 .bf16) := by
  show StableHlo.after hostOps0 (W0 m ρ c) (Proc.devRef .tc main_v1) = _
  after_results
  rfl

/-- An argument the first stretch does not write is, at the first call's entry, as launched. -/
theorem arg_entry1 (c : Dev nD) (b : Ref sig .tc) (h0 : b ≠ main_v0) (h1 : b ≠ main_v1) :
    V1 m ρ c b = m ((c : Thread nD τ).loc b) := by
  show StableHlo.after hostOps0 (W0 m ρ c) (Proc.devRef .tc b) = _
  simp only [after_cons, after_nil]
  rw [unary_result_ne (h := h1), reshape_result_ne (h := h0)]

/-- An argument neither the first stretch nor the first call writes is, at the second call's entry, as launched. -/
theorem arg_entry2 (c : Dev nD) (b : Ref sig .tc) (h0 : b ≠ main_v0) (h1 : b ≠ main_v1)
    (hb : ∀ w, Pipeline.arrRef spec0 w ≠ b) : V2 m ρ c b = m ((c : Thread nD τ).loc b) :=
  (W2_of_ne m ρ c b hb).trans (arg_entry1 m ρ c b h0 h1)

end Cert.Mlp.Boundary

end
-- ==== Proof.KernelValue.lean ====
/-
  The idealized kernel program's result is the specification.

  Reading the boundary contents back: the result is the regrouping `[8192, 4096] → [4, 2048, 4096]` of the second
  call's output array, whose entry `(R, J)` is row `R` of the first call's output array against row `J` of the
  down weight; that array's entry `(R, I)` is the gated hidden value of row `R` of the regrouped activations.
  Row-major order makes entry `(b, t, j)` of the result entry `(2048·b + t, j)` of the output array, and row
  `2048·b + t` of the regrouped activations row `(b, t)` of the activations: the specification's entry.
-/
import proofs.«179572_j83416854823036_1_alg».proof.Proof.GateUp
import proofs.«179572_j83416854823036_1_alg».proof.Proof.Down
import proofs.«179572_j83416854823036_1_alg».proof.Proof.Boundary

set_option maxRecDepth 16384

noncomputable section

namespace Cert.Mlp.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Facts₀ Cert.Mlp

variable (m : (ℓ : Loc nD τ sig) → Buf (Elt Ideal) ℓ) (ρ : Dev nD → PrngReg)

/-- Row `2048·b + t` of the regrouped activations is row `(b, t)` of the activations. -/
theorem acts_row (x : S4x2048x4096.Idx → EReal) (h1 : S4x2048x4096.ShapeCasts S8192x4096) (hb : FTy.bits .bf16 < FTy.bits .f32)
    (b : Fin 4) (t : Fin 2048) (R : Fin 8192) (hR : R.val = b.val * 2048 + t.val) (k : Fin 4096) :
    (truncf .bf16 (shapeCast S8192x4096 x h1) hb : FVec Ideal S8192x4096 .bf16) (ix2 R k) = x (ix3 b t k) := by
  rw [truncf_apply]
  exact shapeCast_apply x h1 (ix2 R k) (ix3 b t k)
    (by rw [Shape.rowMajor_val_three, Shape.rowMajor_val_two]
        show (b.val * 2048 + t.val) * 4096 + k.val = R.val * 4096 + k.val
        rw [hR])

/-- The result buffer at the return holds the specification of the launch contents of the ten arguments. -/
theorem result_value (c : Dev nD) :
    W4 m ρ c (Proc.devRef .tc main_v4)
      = result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Boundary.result_eq, Boundary.out_eq, Down.final (V2 m ρ) c, Boundary.hidden_eq, GateUp.final (V1 m ρ) c, Boundary.acts_eq]
  rw [Boundary.arg_entry1 m ρ c main_arg1 (by decide) (by decide), Boundary.arg_entry1 m ρ c main_arg2 (by decide) (by decide),
    Boundary.arg_entry1 m ρ c main_arg4 (by decide) (by decide), Boundary.arg_entry1 m ρ c main_arg5 (by decide) (by decide),
    Boundary.arg_entry1 m ρ c main_arg6 (by decide) (by decide), Boundary.arg_entry1 m ρ c main_arg7 (by decide) (by decide),
    Boundary.arg_entry2 m ρ c main_arg3 (by decide) (by decide) (by decide), Boundary.arg_entry2 m ρ c main_arg8 (by decide) (by decide) (by decide),
    Boundary.arg_entry2 m ρ c main_arg9 (by decide) (by decide) (by decide)]
  funext j
  obtain ⟨b, t, h, rfl⟩ : ∃ (b : Fin 4) (t : Fin 2048) (h : Fin 4096), j = ix3 b t h := ⟨j 0, j 1, j 2, eq_ix3 j⟩
  have hb := b.isLt
  have ht := t.isLt
  have hR : b.val * 2048 + t.val < 8192 := by omega
  rw [shapeCast_apply _ Facts₀.shapeCasts_S8192x4096_S4x2048x4096 (ix3 b t h) (ix2 (⟨b.val * 2048 + t.val, hR⟩ : Fin 8192) h)
    (by rw [Shape.rowMajor_val_three, Shape.rowMajor_val_two]
        show (b.val * 2048 + t.val) * 4096 + h.val = (b.val * 2048 + t.val) * 4096 + h.val
        rfl)]
  have hrow : (fun k : Fin 4096 => (truncf .bf16 (shapeCast S8192x4096 (m ((c : Thread nD τ).loc main_arg0)) Facts₀.shapeCasts_S4x2048x4096_S8192x4096) Facts₀.bitsLt_bf16_f32 : FVec Ideal S8192x4096 .bf16)
        (ix2 (⟨b.val * 2048 + t.val, hR⟩ : Fin 8192) k)) = fun k => (m ((c : Thread nD τ).loc main_arg0)) (ix3 b t k) :=
    funext fun k => acts_row _ _ _ b t _ rfl k
  refine Eq.trans (b := outRow (fun k : Fin 4096 => (truncf .bf16 (shapeCast S8192x4096 (m ((c : Thread nD τ).loc main_arg0)) Facts₀.shapeCasts_S4x2048x4096_S8192x4096) Facts₀.bitsLt_bf16_f32 : FVec Ideal S8192x4096 .bf16) (ix2 (⟨b.val * 2048 + t.val, hR⟩ : Fin 8192) k))
      (m ((c : Thread nD τ).loc main_arg1)) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg3)) (m ((c : Thread nD τ).loc main_arg8)) (m ((c : Thread nD τ).loc main_arg9)) h) rfl ?_
  rw [hrow]
  rfl

end Cert.Mlp.KernelValue

end
-- ==== Proof.RefValue.lean ====
/-
  The reference program computes the specification.

  Each of the three weight matrices is built the same way: the integer codes are regrouped as
  [rows, groups, 128], read as the integers they are, the group's zero point is subtracted and the group's scale
  multiplied in, and the result is regrouped as [rows, columns]. Regrouping is the identity on the row-major
  position, so entry (r, c) of the weight reads code (r, c) and group c / 128 of row r: that is the specification's
  weight. The three contractions are sums over the whole contracted axis in index order, term by term those of the
  specification; the activation between them, g * (1 / (1 + e^{-g})), is g times the logistic function of g, the
  literal in it being the real number one.
-/
import proofs.«179572_j83416854823036_1_alg».proof.Proof.Gen.ReferenceIdeal.Read
import proofs.«179572_j83416854823036_1_alg».proof.Proof.Spec
import Idealize.ShloMosaic.Lib.IdealHost

noncomputable section

namespace Cert.Mlp.Ref

open Cert.ReferenceIdeal Cert.ReferenceIdeal.Read Idealize.ShloMosaic Idealize.ShloMosaic.ValueIdx

/-! ## Row-major positions under the regroupings

With `4096 = 32 · 128` and `11008 = 86 · 128`: position `r · C + c` of a `[R, C]` array is position
`((r · G + c / 128) · 128 + c % 128)` of the `[R, G, 128]` array, `G = C / 128`. -/

/-- Row of `(r, c)` after `[11008, 4096] → [11008, 32, 128] → [11008, 4096]`. -/
theorem up_row (r c : ℕ) (hr : r < 11008) (hc : c < 4096) :
    (((r * 4096 + c) / 4096 * 32 + (r * 4096 + c) / 128 % 32) * 128 + (r * 4096 + c) % 128) / 4096 = r := by
  omega
/-- Column of `(r, c)` after the same round trip. -/
theorem up_col (r c : ℕ) (hr : r < 11008) (hc : c < 4096) :
    (((r * 4096 + c) / 4096 * 32 + (r * 4096 + c) / 128 % 32) * 128 + (r * 4096 + c) % 128) % 4096 = c := by
  omega
/-- The row of `(r, c)` in the `[11008, 32, 128]` regrouping is `r` … -/
theorem up_grow (r c : ℕ) (hr : r < 11008) (hc : c < 4096) : (r * 4096 + c) / 4096 = r := by omega
/-- … and its group is `c / 128`. -/
theorem up_grp (r c : ℕ) (hr : r < 11008) (hc : c < 4096) : (r * 4096 + c) / 128 % 32 = c / 128 := by omega

/-- Row of `(r, c)` after `[4096, 11008] → [4096, 86, 128] → [4096, 11008]`. -/
theorem down_row (r c : ℕ) (hr : r < 4096) (hc : c < 11008) :
    (((r * 11008 + c) / 11008 * 86 + (r * 11008 + c) / 128 % 86) * 128 + (r * 11008 + c) % 128) / 11008 = r := by
  omega
/-- Column of `(r, c)` after the same round trip. -/
theorem down_col (r c : ℕ) (hr : r < 4096) (hc : c < 11008) :
    (((r * 11008 + c) / 11008 * 86 + (r * 11008 + c) / 128 % 86) * 128 + (r * 11008 + c) % 128) % 11008 = c := by
  omega
/-- The row of `(r, c)` in the `[4096, 86, 128]` regrouping is `r` … -/
theorem down_grow (r c : ℕ) (hr : r < 4096) (hc : c < 11008) : (r * 11008 + c) / 11008 = r := by omega
/-- … and its group is `c / 128`. -/
theorem down_grp (r c : ℕ) (hr : r < 4096) (hc : c < 11008) : (r * 11008 + c) / 128 % 86 = c / 128 := by omega

/-! ## The three weights -/

/-- The gate weight the reference builds is the specification's, entry by entry. -/
theorem weight_gate (x1 : (⟨S11008x4096, .i32⟩ : BufTy).Contents (Elt Ideal))
    (x4 x5 : (⟨S11008x32, .f32⟩ : BufTy).Contents (Elt Ideal)) (i : Fin 11008) (k : Fin 4096) :
    val_main_v8 (F := Ideal) x1 x4 x5 (ix2 i k) = Cert.Mlp.wUp x1 x4 x5 i k := by
  have eq : idx_main_v0 (idx_main_v8 (ix2 i k)) = ix2 i k := funext fun a => Fin.ext (by
    match a with
    | ⟨0, _⟩ => exact up_row i.val k.val i.isLt k.isLt
    | ⟨1, _⟩ => exact up_col i.val k.val i.isLt k.isLt)
  have ez : idx_main_v2 (idx_main_v3 (idx_main_v8 (ix2 i k))) = ix2 i ⟨k.val / 128, Cert.Mlp.grp32 k⟩ :=
    funext fun a => Fin.ext (by
      match a with
      | ⟨0, _⟩ => exact up_grow i.val k.val i.isLt k.isLt
      | ⟨1, _⟩ => exact up_grp i.val k.val i.isLt k.isLt)
  have es : idx_main_v5 (idx_main_v6 (idx_main_v8 (ix2 i k))) = ix2 i ⟨k.val / 128, Cert.Mlp.grp32 k⟩ :=
    funext fun a => Fin.ext (by
      match a with
      | ⟨0, _⟩ => exact up_grow i.val k.val i.isLt k.isLt
      | ⟨1, _⟩ => exact up_grp i.val k.val i.isLt k.isLt)
  rw [val_main_v8_apply, val_main_v7_apply, val_main_v4_apply, val_main_v1_apply, val_main_v0_apply,
    val_main_v3_apply, val_main_v2_apply, val_main_v6_apply, val_main_v5_apply, eq, ez, es]
  rfl

/-- The up weight is built by the same operations from its own codes, scales and zero points. -/
theorem weight_up (x2 : (⟨S11008x4096, .i32⟩ : BufTy).Contents (Elt Ideal))
    (x6 x7 : (⟨S11008x32, .f32⟩ : BufTy).Contents (Elt Ideal)) (i : Fin 11008) (k : Fin 4096) :
    val_main_v17 (F := Ideal) x2 x6 x7 (ix2 i k) = Cert.Mlp.wUp x2 x6 x7 i k := by
  have eq : idx_main_v9 (idx_main_v17 (ix2 i k)) = ix2 i k := funext fun a => Fin.ext (by
    match a with
    | ⟨0, _⟩ => exact up_row i.val k.val i.isLt k.isLt
    | ⟨1, _⟩ => exact up_col i.val k.val i.isLt k.isLt)
  have ez : idx_main_v11 (idx_main_v12 (idx_main_v17 (ix2 i k))) = ix2 i ⟨k.val / 128, Cert.Mlp.grp32 k⟩ :=
    funext fun a => Fin.ext (by
      match a with
      | ⟨0, _⟩ => exact up_grow i.val k.val i.isLt k.isLt
      | ⟨1, _⟩ => exact up_grp i.val k.val i.isLt k.isLt)
  have es : idx_main_v14 (idx_main_v15 (idx_main_v17 (ix2 i k))) = ix2 i ⟨k.val / 128, Cert.Mlp.grp32 k⟩ :=
    funext fun a => Fin.ext (by
      match a with
      | ⟨0, _⟩ => exact up_grow i.val k.val i.isLt k.isLt
      | ⟨1, _⟩ => exact up_grp i.val k.val i.isLt k.isLt)
  rw [val_main_v17_apply, val_main_v16_apply, val_main_v13_apply, val_main_v10_apply, val_main_v9_apply,
    val_main_v12_apply, val_main_v11_apply, val_main_v15_apply, val_main_v14_apply, eq, ez, es]
  rfl

/-- The down weight, `[4096, 11008]` in 86 groups of 128 per row, likewise. -/
theorem weight_down (x3 : (⟨S4096x11008, .i32⟩ : BufTy).Contents (Elt Ideal))
    (x8 x9 : (⟨S4096x86, .f32⟩ : BufTy).Contents (Elt Ideal)) (j : Fin 4096) (i : Fin 11008) :
    val_main_v26 (F := Ideal) x3 x8 x9 (ix2 j i) = Cert.Mlp.wDown x3 x8 x9 j i := by
  have eq : idx_main_v18 (idx_main_v26 (ix2 j i)) = ix2 j i := funext fun a => Fin.ext (by
    match a with
    | ⟨0, _⟩ => exact down_row j.val i.val j.isLt i.isLt
    | ⟨1, _⟩ => exact down_col j.val i.val j.isLt i.isLt)
  have ez : idx_main_v20 (idx_main_v21 (idx_main_v26 (ix2 j i))) = ix2 j ⟨i.val / 128, Cert.Mlp.grp86 i⟩ :=
    funext fun a => Fin.ext (by
      match a with
      | ⟨0, _⟩ => exact down_grow j.val i.val j.isLt i.isLt
      | ⟨1, _⟩ => exact down_grp j.val i.val j.isLt i.isLt)
  have es : idx_main_v23 (idx_main_v24 (idx_main_v26 (ix2 j i))) = ix2 j ⟨i.val / 128, Cert.Mlp.grp86 i⟩ :=
    funext fun a => Fin.ext (by
      match a with
      | ⟨0, _⟩ => exact down_grow j.val i.val j.isLt i.isLt
      | ⟨1, _⟩ => exact down_grp j.val i.val j.isLt i.isLt)
  rw [val_main_v26_apply, val_main_v25_apply, val_main_v22_apply, val_main_v19_apply, val_main_v18_apply,
    val_main_v21_apply, val_main_v20_apply, val_main_v24_apply, val_main_v23_apply, eq, ez, es]
  rfl

/-! ## The two projections, the activation, and the result -/

/-- The gate projection at `(b, t, i)`: row `(b, t)` of the activations against row `i` of the gate weight. -/
theorem gate_proj (x0 : (⟨S4x2048x4096, .f32⟩ : BufTy).Contents (Elt Ideal))
    (x1 : (⟨S11008x4096, .i32⟩ : BufTy).Contents (Elt Ideal))
    (x4 x5 : (⟨S11008x32, .f32⟩ : BufTy).Contents (Elt Ideal)) (b : Fin 4) (t : Fin 2048) (i : Fin 11008) :
    val_main_v27 (F := Ideal) x0 x1 x4 x5 (ix3 b t i)
      = Cert.Mlp.proj (fun k => x0 (ix3 b t k)) x1 x4 x5 i := by
  rw [val_main_v27_apply]
  unfold Cert.Mlp.proj
  refine Finset.sum_congr rfl fun k _ => ?_
  have el : lidx_main_v27 (ix3 b t i) k = ix3 b t k := funext fun a => Fin.ext (by
    match a with
    | ⟨0, _⟩ => rfl
    | ⟨1, _⟩ => rfl
    | ⟨2, _⟩ => rfl)
  have er : ridx_main_v27 (ix3 b t i) k = ix2 i k := funext fun a => Fin.ext (by
    match a with
    | ⟨0, _⟩ => rfl
    | ⟨1, _⟩ => rfl)
  rw [el, er, weight_gate]

/-- The up projection at `(b, t, i)`. -/
theorem up_proj (x0 : (⟨S4x2048x4096, .f32⟩ : BufTy).Contents (Elt Ideal))
    (x2 : (⟨S11008x4096, .i32⟩ : BufTy).Contents (Elt Ideal))
    (x6 x7 : (⟨S11008x32, .f32⟩ : BufTy).Contents (Elt Ideal)) (b : Fin 4) (t : Fin 2048) (i : Fin 11008) :
    val_main_v28 (F := Ideal) x0 x2 x6 x7 (ix3 b t i)
      = Cert.Mlp.proj (fun k => x0 (ix3 b t k)) x2 x6 x7 i := by
  rw [val_main_v28_apply]
  unfold Cert.Mlp.proj
  refine Finset.sum_congr rfl fun k _ => ?_
  have el : lidx_main_v28 (ix3 b t i) k = ix3 b t k := funext fun a => Fin.ext (by
    match a with
    | ⟨0, _⟩ => rfl
    | ⟨1, _⟩ => rfl
    | ⟨2, _⟩ => rfl)
  have er : ridx_main_v28 (ix3 b t i) k = ix2 i k := funext fun a => Fin.ext (by
    match a with
    | ⟨0, _⟩ => rfl
    | ⟨1, _⟩ => rfl)
  rw [el, er, weight_up]

/-- The activation: `g · (1 / (1 + e^{-g}))` with the literal one is `g` times the logistic function of `g`. -/
theorem gated (x0 : (⟨S4x2048x4096, .f32⟩ : BufTy).Contents (Elt Ideal))
    (x1 : (⟨S11008x4096, .i32⟩ : BufTy).Contents (Elt Ideal))
    (x4 x5 : (⟨S11008x32, .f32⟩ : BufTy).Contents (Elt Ideal)) (j : S4x2048x11008.Idx) :
    val_main_v29 (F := Ideal) x0 x1 x4 x5 j
      = val_main_v27 (F := Ideal) x0 x1 x4 x5 j * Ideal.logistic (val_main_v27 (F := Ideal) x0 x1 x4 x5 j) := by
  rw [val_main_v29_apply, val_main_call0_v5_apply, val_main_call0_v4_apply, val_main_call0_cst_0_apply,
    val_main_call0_v3_apply, val_main_call0_v2_apply, val_main_call0_cst_apply, val_main_call0_v1_apply,
    val_main_call0_v0_apply]
  show _ * Ideal.div (Ideal.ofBits .f32 0x3F800000#32)
      (Ideal.ofBits .f32 0x3F800000#32 + Ideal.exp (-(val_main_v27 (F := Ideal) x0 x1 x4 x5 j))) = _
  rw [Ideal.ofBits_one_f32]
  rfl

/-- The reference's result is the specification's, at every index. -/
theorem ref_eq (x0 : (⟨S4x2048x4096, .f32⟩ : BufTy).Contents (Elt Ideal))
    (x1 x2 : (⟨S11008x4096, .i32⟩ : BufTy).Contents (Elt Ideal))
    (x3 : (⟨S4096x11008, .i32⟩ : BufTy).Contents (Elt Ideal))
    (x4 x5 x6 x7 : (⟨S11008x32, .f32⟩ : BufTy).Contents (Elt Ideal))
    (x8 x9 : (⟨S4096x86, .f32⟩ : BufTy).Contents (Elt Ideal)) :
    Cert.ReferenceIdeal.Read.val_main_v31 (F := Ideal) x0 x1 x2 x3 x4 x5 x6 x7 x8 x9
      = Cert.Mlp.result x0 x1 x2 x3 x4 x5 x6 x7 x8 x9 := by
  funext j
  obtain ⟨b, t, o, rfl⟩ : ∃ (b : Fin 4) (t : Fin 2048) (o : Fin 4096), j = ix3 b t o :=
    ⟨j 0, j 1, j 2, eq_ix3 j⟩
  rw [val_main_v31_apply]
  show _ = Cert.Mlp.outRow (fun k => x0 (ix3 b t k)) x1 x4 x5 x2 x6 x7 x3 x8 x9 o
  unfold Cert.Mlp.outRow
  refine Finset.sum_congr rfl fun i _ => ?_
  have el : lidx_main_v31 (ix3 b t o) i = ix3 b t i := funext fun a => Fin.ext (by
    match a with
    | ⟨0, _⟩ => rfl
    | ⟨1, _⟩ => rfl
    | ⟨2, _⟩ => rfl)
  have er : ridx_main_v31 (ix3 b t o) i = ix2 o i := funext fun a => Fin.ext (by
    match a with
    | ⟨0, _⟩ => rfl
    | ⟨1, _⟩ => rfl)
  rw [el, er, weight_down, val_main_v30_apply, gated, gate_proj, up_proj]
  rfl

end Cert.Mlp.Ref

end
-- ==== Proof.lean ====
/-
  The certificate of a 4-bit-weight gated MLP kernel against its plain reference, over the extended reals.

  Both programs compute, for every row `x` of the activations, `y_j = ∑_i ((g_i · σ(g_i)) · u_i) · Wdown_{j,i}` with
  `g_i = ∑_k x_k · Wgate_{i,k}`, `u_i = ∑_k x_k · Wup_{i,k}`, each weight `(q − z) · s` with one scale and one zero point
  per group of 128 columns (Proof/Spec.lean).  The kernel does it in two pallas_calls — hidden values tile by tile,
  then the down projection tile by tile, every contraction over its whole axis inside one tile — between a regrouping
  of the activations to rows and a regrouping of the output back; the reference in three whole matrix products.
  Changes of float format are the identity on the extended reals, the kernel's logistic operation is the function
  `1 / (1 + e^{-t})` the reference spells out, and no sum is regrouped or reordered, so the two results are the same
  function of the arguments term by term, and no finiteness of the inputs is used.

  The three frames: the two kernel programs' are generated whole; the reference's is its generated run with the
  result dropped.  The idealization rewrote no operation, so `preserves` states nothing.  `algebraic`: the
  kernel program's run with its result named (Proof/RunResult.lean) read back through the two calls' output arrays
  (Proof/GateUp.lean, Proof/Down.lean, Proof/Boundary.lean, Proof/KernelValue.lean), and the reference's generated
  run read stage by stage (Proof/RefValue.lean), both against the one specification.
-/
import proofs.«179572_j83416854823036_1_alg».proof.Defs
import proofs.«179572_j83416854823036_1_alg».proof.Proof.Gen.Kernel
import proofs.«179572_j83416854823036_1_alg».proof.Proof.Gen.Kernel.Skeleton
import proofs.«179572_j83416854823036_1_alg».proof.Proof.Gen.Kernel.Launch
import proofs.«179572_j83416854823036_1_alg».proof.Proof.Gen.Kernel.Points
import proofs.«179572_j83416854823036_1_alg».proof.Proof.Gen.Kernel.Frame
import proofs.«179572_j83416854823036_1_alg».proof.Proof.Gen.KernelIdeal
import proofs.«179572_j83416854823036_1_alg».proof.Proof.Gen.KernelIdeal.Skeleton
import proofs.«179572_j83416854823036_1_alg».proof.Proof.Gen.KernelIdeal.Launch
import proofs.«179572_j83416854823036_1_alg».proof.Proof.Gen.KernelIdeal.Points
import proofs.«179572_j83416854823036_1_alg».proof.Proof.Gen.KernelIdeal.Frame
import proofs.«179572_j83416854823036_1_alg».proof.Proof.Gen.ReferenceIdeal
import proofs.«179572_j83416854823036_1_alg».proof.Proof.Gen.ReferenceIdeal.Run
import proofs.«179572_j83416854823036_1_alg».proof.Proof.Gen.ReferenceIdeal.Read
import proofs.«179572_j83416854823036_1_alg».proof.Proof.Gen.Pre_finite_inputs
import proofs.«179572_j83416854823036_1_alg».proof.Proof.RunResult
import proofs.«179572_j83416854823036_1_alg».proof.Proof.KernelValue
import proofs.«179572_j83416854823036_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the specification of the kernel program's launch arguments in their result buffers: the
    kernel program by its run read back to the launch memory, the reference by its run read stage by stage, its
    arguments agreeing with the kernel program's. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Mlp.KernelValue.result_value m ρ c), (h c).2⟩)
      (Cert.KernelIdeal.RunResult.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.Mlp.Ref.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
